-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x40x64 : Shape := ⟨3, ![4096, 40, 64]⟩
abbrev S_ : Shape := ⟨0, ![]⟩

class Facts : Prop where
  bcast_S_S4096x40x64 : S_.BroadcastsInDim S4096x40x64 (![] : Fin 0 → Fin S4096x40x64.rank)
  reducesTo_S4096x40x64_S_d0_1_2 : S4096x40x64.ReducesTo [0, 1, 2] S_
  h_S_ : 0 < S_.numel

variable [Facts]

def fn {F : FTy → Type} [FloatOps F] (main_arg0 : FVec F S4096x40x64 .f32) : IVec S_ 1 :=
  let main_v0 : FVec F S4096x40x64 .f32 := Host.absf main_arg0
  let main_cst : FVec F S_ .f32 := constant S_ .f32 0x7F800000#32
  let main_v1 : FVec F S4096x40x64 .f32 := broadcastInDim S4096x40x64 ![] bcast_S_S4096x40x64 main_cst
  let main_v2 : IVec S4096x40x64 1 := cmpf .olt main_v0 main_v1
  let main_c : IVec S_ 1 := constantI S_ 1 1#1
  let main_v3 : IVec S_ 1 := (fun x v => Host.reduce IntOp.andi x v reducesTo_S4096x40x64_S_d0_1_2 h_S_) main_v2 main_c
  main_v3
-- ==== Kernel.lean ====
abbrev S4096x40x64 : Shape := ⟨3, ![4096, 40, 64]⟩
abbrev S4096x780x64 : Shape := ⟨3, ![4096, 780, 64]⟩
abbrev S64x40x64 : Shape := ⟨3, ![64, 40, 64]⟩
abbrev S64x780x64 : Shape := ⟨3, ![64, 780, 64]⟩
abbrev S64x1x64 : Shape := ⟨3, ![64, 1, 64]⟩
abbrev S64x64 : Shape := ⟨2, ![64, 64]⟩
abbrev S64x39x64 : Shape := ⟨3, ![64, 39, 64]⟩
abbrev S64x38x64 : Shape := ⟨3, ![64, 38, 64]⟩
abbrev S64x37x64 : Shape := ⟨3, ![64, 37, 64]⟩
abbrev S64x36x64 : Shape := ⟨3, ![64, 36, 64]⟩
abbrev S64x35x64 : Shape := ⟨3, ![64, 35, 64]⟩
abbrev S64x34x64 : Shape := ⟨3, ![64, 34, 64]⟩
abbrev S64x33x64 : Shape := ⟨3, ![64, 33, 64]⟩
abbrev S64x32x64 : Shape := ⟨3, ![64, 32, 64]⟩
abbrev S64x31x64 : Shape := ⟨3, ![64, 31, 64]⟩
abbrev S64x30x64 : Shape := ⟨3, ![64, 30, 64]⟩
abbrev S64x29x64 : Shape := ⟨3, ![64, 29, 64]⟩
abbrev S64x28x64 : Shape := ⟨3, ![64, 28, 64]⟩
abbrev S64x27x64 : Shape := ⟨3, ![64, 27, 64]⟩
abbrev S64x26x64 : Shape := ⟨3, ![64, 26, 64]⟩
abbrev S64x25x64 : Shape := ⟨3, ![64, 25, 64]⟩
abbrev S64x24x64 : Shape := ⟨3, ![64, 24, 64]⟩
abbrev S64x23x64 : Shape := ⟨3, ![64, 23, 64]⟩
abbrev S64x22x64 : Shape := ⟨3, ![64, 22, 64]⟩
abbrev S64x21x64 : Shape := ⟨3, ![64, 21, 64]⟩
abbrev S64x20x64 : Shape := ⟨3, ![64, 20, 64]⟩
abbrev S64x19x64 : Shape := ⟨3, ![64, 19, 64]⟩
abbrev S64x18x64 : Shape := ⟨3, ![64, 18, 64]⟩
abbrev S64x17x64 : Shape := ⟨3, ![64, 17, 64]⟩
abbrev S64x16x64 : Shape := ⟨3, ![64, 16, 64]⟩
abbrev S64x15x64 : Shape := ⟨3, ![64, 15, 64]⟩
abbrev S64x14x64 : Shape := ⟨3, ![64, 14, 64]⟩
abbrev S64x13x64 : Shape := ⟨3, ![64, 13, 64]⟩
abbrev S64x12x64 : Shape := ⟨3, ![64, 12, 64]⟩
abbrev S64x11x64 : Shape := ⟨3, ![64, 11, 64]⟩
abbrev S64x10x64 : Shape := ⟨3, ![64, 10, 64]⟩
abbrev S64x9x64 : Shape := ⟨3, ![64, 9, 64]⟩
abbrev S64x8x64 : Shape := ⟨3, ![64, 8, 64]⟩
abbrev S64x7x64 : Shape := ⟨3, ![64, 7, 64]⟩
abbrev S64x6x64 : Shape := ⟨3, ![64, 6, 64]⟩
abbrev S64x5x64 : Shape := ⟨3, ![64, 5, 64]⟩
abbrev S64x4x64 : Shape := ⟨3, ![64, 4, 64]⟩
abbrev S64x3x64 : Shape := ⟨3, ![64, 3, 64]⟩
abbrev S64x2x64 : Shape := ⟨3, ![64, 2, 64]⟩

abbrev nBuf : Space → Nat
  | .hbm => 2
  | .vmem => 4
  | .smem => 0
  | _ => 0

abbrev bufTy : (tb : Table) → Fin (tcTables nBuf tb) → BufTy
  | .hbm, ⟨0, _⟩ => ⟨S4096x40x64, .f32⟩
  | .hbm, ⟨1, _⟩ => ⟨S4096x780x64, .f32⟩
  | .local _ .vmem, ⟨0, _⟩ => ⟨S64x40x64, .f32⟩
  | .local _ .vmem, ⟨1, _⟩ => ⟨S64x40x64, .f32⟩
  | .local _ .vmem, ⟨2, _⟩ => ⟨S64x780x64, .f32⟩
  | .local _ .vmem, ⟨3, _⟩ => ⟨S64x780x64, .f32⟩
  | _, _ => ⟨S4096x40x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x40x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x780x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S64x40x64_S64x1x64_0_0_0 : ∀ a, (![0, 0, 0] : Fin 3 → Nat) a + S64x1x64.size a ≤ S64x40x64.size a
  h_S64x1x64 : 0 < S64x1x64.numel
  shapeCasts_S64x1x64_S64x64 : S64x1x64.ShapeCasts S64x64
  inb_S64x40x64_S64x39x64_0_1_0 : ∀ a, (![0, 1, 0] : Fin 3 → Nat) a + S64x39x64.size a ≤ S64x40x64.size a
  h_S64x39x64 : 0 < S64x39x64.numel
  shapeCasts_S64x64_S64x1x64 : S64x64.ShapeCasts S64x1x64
  broadcasts_S64x1x64_S64x39x64 : S64x1x64.Broadcasts S64x39x64
  inb_S64x780x64_S64x39x64_0_0_0 : ∀ a, (![0, 0, 0] : Fin 3 → Nat) a + S64x39x64.size a ≤ S64x780x64.size a
  inb_S64x40x64_S64x1x64_0_1_0 : ∀ a, (![0, 1, 0] : Fin 3 → Nat) a + S64x1x64.size a ≤ S64x40x64.size a
  inb_S64x40x64_S64x38x64_0_2_0 : ∀ a, (![0, 2, 0] : Fin 3 → Nat) a + S64x38x64.size a ≤ S64x40x64.size a
  h_S64x38x64 : 0 < S64x38x64.numel
  broadcasts_S64x1x64_S64x38x64 : S64x1x64.Broadcasts S64x38x64
  inb_S64x780x64_S64x38x64_0_39_0 : ∀ a, (![0, 39, 0] : Fin 3 → Nat) a + S64x38x64.size a ≤ S64x780x64.size a
  inb_S64x40x64_S64x1x64_0_2_0 : ∀ a, (![0, 2, 0] : Fin 3 → Nat) a + S64x1x64.size a ≤ S64x40x64.size a
  inb_S64x40x64_S64x37x64_0_3_0 : ∀ a, (![0, 3, 0] : Fin 3 → Nat) a + S64x37x64.size a ≤ S64x40x64.size a
  h_S64x37x64 : 0 < S64x37x64.numel
  broadcasts_S64x1x64_S64x37x64 : S64x1x64.Broadcasts S64x37x64
  inb_S64x780x64_S64x37x64_0_77_0 : ∀ a, (![0, 77, 0] : Fin 3 → Nat) a + S64x37x64.size a ≤ S64x780x64.size a
  inb_S64x40x64_S64x1x64_0_3_0 : ∀ a, (![0, 3, 0] : Fin 3 → Nat) a + S64x1x64.size a ≤ S64x40x64.size a
  inb_S64x40x64_S64x36x64_0_4_0 : ∀ a, (![0, 4, 0] : Fin 3 → Nat) a + S64x36x64.size a ≤ S64x40x64.size a
  h_S64x36x64 : 0 < S64x36x64.numel
  broadcasts_S64x1x64_S64x36x64 : S64x1x64.Broadcasts S64x36x64
  inb_S64x780x64_S64x36x64_0_114_0 : ∀ a, (![0, 114, 0] : Fin 3 → Nat) a + S64x36x64.size a ≤ S64x780x64.size a
  inb_S64x40x64_S64x1x64_0_4_0 : ∀ a, (![0, 4, 0] : Fin 3 → Nat) a + S64x1x64.size a ≤ S64x40x64.size a
  inb_S64x40x64_S64x35x64_0_5_0 : ∀ a, (![0, 5, 0] : Fin 3 → Nat) a + S64x35x64.size a ≤ S64x40x64.size a
  h_S64x35x64 : 0 < S64x35x64.numel
  broadcasts_S64x1x64_S64x35x64 : S64x1x64.Broadcasts S64x35x64
  inb_S64x780x64_S64x35x64_0_150_0 : ∀ a, (![0, 150, 0] : Fin 3 → Nat) a + S64x35x64.size a ≤ S64x780x64.size a
  inb_S64x40x64_S64x1x64_0_5_0 : ∀ a, (![0, 5, 0] : Fin 3 → Nat) a + S64x1x64.size a ≤ S64x40x64.size a
  inb_S64x40x64_S64x34x64_0_6_0 : ∀ a, (![0, 6, 0] : Fin 3 → Nat) a + S64x34x64.size a ≤ S64x40x64.size a
  h_S64x34x64 : 0 < S64x34x64.numel
  broadcasts_S64x1x64_S64x34x64 : S64x1x64.Broadcasts S64x34x64
  inb_S64x780x64_S64x34x64_0_185_0 : ∀ a, (![0, 185, 0] : Fin 3 → Nat) a + S64x34x64.size a ≤ S64x780x64.size a
  inb_S64x40x64_S64x1x64_0_6_0 : ∀ a, (![0, 6, 0] : Fin 3 → Nat) a + S64x1x64.size a ≤ S64x40x64.size a
  inb_S64x40x64_S64x33x64_0_7_0 : ∀ a, (![0, 7, 0] : Fin 3 → Nat) a + S64x33x64.size a ≤ S64x40x64.size a
  h_S64x33x64 : 0 < S64x33x64.numel
  broadcasts_S64x1x64_S64x33x64 : S64x1x64.Broadcasts S64x33x64
  inb_S64x780x64_S64x33x64_0_219_0 : ∀ a, (![0, 219, 0] : Fin 3 → Nat) a + S64x33x64.size a ≤ S64x780x64.size a
  inb_S64x40x64_S64x1x64_0_7_0 : ∀ a, (![0, 7, 0] : Fin 3 → Nat) a + S64x1x64.size a ≤ S64x40x64.size a
  inb_S64x40x64_S64x32x64_0_8_0 : ∀ a, (![0, 8, 0] : Fin 3 → Nat) a + S64x32x64.size a ≤ S64x40x64.size a
  h_S64x32x64 : 0 < S64x32x64.numel
  broadcasts_S64x1x64_S64x32x64 : S64x1x64.Broadcasts S64x32x64
  inb_S64x780x64_S64x32x64_0_252_0 : ∀ a, (![0, 252, 0] : Fin 3 → Nat) a + S64x32x64.size a ≤ S64x780x64.size a
  inb_S64x40x64_S64x1x64_0_8_0 : ∀ a, (![0, 8, 0] : Fin 3 → Nat) a + S64x1x64.size a ≤ S64x40x64.size a
  inb_S64x40x64_S64x31x64_0_9_0 : ∀ a, (![0, 9, 0] : Fin 3 → Nat) a + S64x31x64.size a ≤ S64x40x64.size a
  h_S64x31x64 : 0 < S64x31x64.numel
  broadcasts_S64x1x64_S64x31x64 : S64x1x64.Broadcasts S64x31x64
  inb_S64x780x64_S64x31x64_0_284_0 : ∀ a, (![0, 284, 0] : Fin 3 → Nat) a + S64x31x64.size a ≤ S64x780x64.size a
  inb_S64x40x64_S64x1x64_0_9_0 : ∀ a, (![0, 9, 0] : Fin 3 → Nat) a + S64x1x64.size a ≤ S64x40x64.size a
  inb_S64x40x64_S64x30x64_0_10_0 : ∀ a, (![0, 10, 0] : Fin 3 → Nat) a + S64x30x64.size a ≤ S64x40x64.size a
  h_S64x30x64 : 0 < S64x30x64.numel
  broadcasts_S64x1x64_S64x30x64 : S64x1x64.Broadcasts S64x30x64
  inb_S64x780x64_S64x30x64_0_315_0 : ∀ a, (![0, 315, 0] : Fin 3 → Nat) a + S64x30x64.size a ≤ S64x780x64.size a
  inb_S64x40x64_S64x1x64_0_10_0 : ∀ a, (![0, 10, 0] : Fin 3 → Nat) a + S64x1x64.size a ≤ S64x40x64.size a
  inb_S64x40x64_S64x29x64_0_11_0 : ∀ a, (![0, 11, 0] : Fin 3 → Nat) a + S64x29x64.size a ≤ S64x40x64.size a
  h_S64x29x64 : 0 < S64x29x64.numel
  broadcasts_S64x1x64_S64x29x64 : S64x1x64.Broadcasts S64x29x64
  inb_S64x780x64_S64x29x64_0_345_0 : ∀ a, (![0, 345, 0] : Fin 3 → Nat) a + S64x29x64.size a ≤ S64x780x64.size a
  inb_S64x40x64_S64x1x64_0_11_0 : ∀ a, (![0, 11, 0] : Fin 3 → Nat) a + S64x1x64.size a ≤ S64x40x64.size a
  inb_S64x40x64_S64x28x64_0_12_0 : ∀ a, (![0, 12, 0] : Fin 3 → Nat) a + S64x28x64.size a ≤ S64x40x64.size a
  h_S64x28x64 : 0 < S64x28x64.numel
  broadcasts_S64x1x64_S64x28x64 : S64x1x64.Broadcasts S64x28x64
  inb_S64x780x64_S64x28x64_0_374_0 : ∀ a, (![0, 374, 0] : Fin 3 → Nat) a + S64x28x64.size a ≤ S64x780x64.size a
  inb_S64x40x64_S64x1x64_0_12_0 : ∀ a, (![0, 12, 0] : Fin 3 → Nat) a + S64x1x64.size a ≤ S64x40x64.size a
  inb_S64x40x64_S64x27x64_0_13_0 : ∀ a, (![0, 13, 0] : Fin 3 → Nat) a + S64x27x64.size a ≤ S64x40x64.size a
  h_S64x27x64 : 0 < S64x27x64.numel
  broadcasts_S64x1x64_S64x27x64 : S64x1x64.Broadcasts S64x27x64
  inb_S64x780x64_S64x27x64_0_402_0 : ∀ a, (![0, 402, 0] : Fin 3 → Nat) a + S64x27x64.size a ≤ S64x780x64.size a
  inb_S64x40x64_S64x1x64_0_13_0 : ∀ a, (![0, 13, 0] : Fin 3 → Nat) a + S64x1x64.size a ≤ S64x40x64.size a
  inb_S64x40x64_S64x26x64_0_14_0 : ∀ a, (![0, 14, 0] : Fin 3 → Nat) a + S64x26x64.size a ≤ S64x40x64.size a
  h_S64x26x64 : 0 < S64x26x64.numel
  broadcasts_S64x1x64_S64x26x64 : S64x1x64.Broadcasts S64x26x64
  inb_S64x780x64_S64x26x64_0_429_0 : ∀ a, (![0, 429, 0] : Fin 3 → Nat) a + S64x26x64.size a ≤ S64x780x64.size a
  inb_S64x40x64_S64x1x64_0_14_0 : ∀ a, (![0, 14, 0] : Fin 3 → Nat) a + S64x1x64.size a ≤ S64x40x64.size a
  inb_S64x40x64_S64x25x64_0_15_0 : ∀ a, (![0, 15, 0] : Fin 3 → Nat) a + S64x25x64.size a ≤ S64x40x64.size a
  h_S64x25x64 : 0 < S64x25x64.numel
  broadcasts_S64x1x64_S64x25x64 : S64x1x64.Broadcasts S64x25x64
  inb_S64x780x64_S64x25x64_0_455_0 : ∀ a, (![0, 455, 0] : Fin 3 → Nat) a + S64x25x64.size a ≤ S64x780x64.size a
  inb_S64x40x64_S64x1x64_0_15_0 : ∀ a, (![0, 15, 0] : Fin 3 → Nat) a + S64x1x64.size a ≤ S64x40x64.size a
  inb_S64x40x64_S64x24x64_0_16_0 : ∀ a, (![0, 16, 0] : Fin 3 → Nat) a + S64x24x64.size a ≤ S64x40x64.size a
  h_S64x24x64 : 0 < S64x24x64.numel
  broadcasts_S64x1x64_S64x24x64 : S64x1x64.Broadcasts S64x24x64
  inb_S64x780x64_S64x24x64_0_480_0 : ∀ a, (![0, 480, 0] : Fin 3 → Nat) a + S64x24x64.size a ≤ S64x780x64.size a
  inb_S64x40x64_S64x1x64_0_16_0 : ∀ a, (![0, 16, 0] : Fin 3 → Nat) a + S64x1x64.size a ≤ S64x40x64.size a
  inb_S64x40x64_S64x23x64_0_17_0 : ∀ a, (![0, 17, 0] : Fin 3 → Nat) a + S64x23x64.size a ≤ S64x40x64.size a
  h_S64x23x64 : 0 < S64x23x64.numel
  broadcasts_S64x1x64_S64x23x64 : S64x1x64.Broadcasts S64x23x64
  inb_S64x780x64_S64x23x64_0_504_0 : ∀ a, (![0, 504, 0] : Fin 3 → Nat) a + S64x23x64.size a ≤ S64x780x64.size a
  inb_S64x40x64_S64x1x64_0_17_0 : ∀ a, (![0, 17, 0] : Fin 3 → Nat) a + S64x1x64.size a ≤ S64x40x64.size a
  inb_S64x40x64_S64x22x64_0_18_0 : ∀ a, (![0, 18, 0] : Fin 3 → Nat) a + S64x22x64.size a ≤ S64x40x64.size a
  h_S64x22x64 : 0 < S64x22x64.numel
  broadcasts_S64x1x64_S64x22x64 : S64x1x64.Broadcasts S64x22x64
  inb_S64x780x64_S64x22x64_0_527_0 : ∀ a, (![0, 527, 0] : Fin 3 → Nat) a + S64x22x64.size a ≤ S64x780x64.size a
  inb_S64x40x64_S64x1x64_0_18_0 : ∀ a, (![0, 18, 0] : Fin 3 → Nat) a + S64x1x64.size a ≤ S64x40x64.size a
  inb_S64x40x64_S64x21x64_0_19_0 : ∀ a, (![0, 19, 0] : Fin 3 → Nat) a + S64x21x64.size a ≤ S64x40x64.size a
  h_S64x21x64 : 0 < S64x21x64.numel
  broadcasts_S64x1x64_S64x21x64 : S64x1x64.Broadcasts S64x21x64
  inb_S64x780x64_S64x21x64_0_549_0 : ∀ a, (![0, 549, 0] : Fin 3 → Nat) a + S64x21x64.size a ≤ S64x780x64.size a
  inb_S64x40x64_S64x1x64_0_19_0 : ∀ a, (![0, 19, 0] : Fin 3 → Nat) a + S64x1x64.size a ≤ S64x40x64.size a
  inb_S64x40x64_S64x20x64_0_20_0 : ∀ a, (![0, 20, 0] : Fin 3 → Nat) a + S64x20x64.size a ≤ S64x40x64.size a
  h_S64x20x64 : 0 < S64x20x64.numel
  broadcasts_S64x1x64_S64x20x64 : S64x1x64.Broadcasts S64x20x64
  inb_S64x780x64_S64x20x64_0_570_0 : ∀ a, (![0, 570, 0] : Fin 3 → Nat) a + S64x20x64.size a ≤ S64x780x64.size a
  inb_S64x40x64_S64x1x64_0_20_0 : ∀ a, (![0, 20, 0] : Fin 3 → Nat) a + S64x1x64.size a ≤ S64x40x64.size a
  inb_S64x40x64_S64x19x64_0_21_0 : ∀ a, (![0, 21, 0] : Fin 3 → Nat) a + S64x19x64.size a ≤ S64x40x64.size a
  h_S64x19x64 : 0 < S64x19x64.numel
  broadcasts_S64x1x64_S64x19x64 : S64x1x64.Broadcasts S64x19x64
  inb_S64x780x64_S64x19x64_0_590_0 : ∀ a, (![0, 590, 0] : Fin 3 → Nat) a + S64x19x64.size a ≤ S64x780x64.size a
  inb_S64x40x64_S64x1x64_0_21_0 : ∀ a, (![0, 21, 0] : Fin 3 → Nat) a + S64x1x64.size a ≤ S64x40x64.size a
  inb_S64x40x64_S64x18x64_0_22_0 : ∀ a, (![0, 22, 0] : Fin 3 → Nat) a + S64x18x64.size a ≤ S64x40x64.size a
  h_S64x18x64 : 0 < S64x18x64.numel
  broadcasts_S64x1x64_S64x18x64 : S64x1x64.Broadcasts S64x18x64
  inb_S64x780x64_S64x18x64_0_609_0 : ∀ a, (![0, 609, 0] : Fin 3 → Nat) a + S64x18x64.size a ≤ S64x780x64.size a
  inb_S64x40x64_S64x1x64_0_22_0 : ∀ a, (![0, 22, 0] : Fin 3 → Nat) a + S64x1x64.size a ≤ S64x40x64.size a
  inb_S64x40x64_S64x17x64_0_23_0 : ∀ a, (![0, 23, 0] : Fin 3 → Nat) a + S64x17x64.size a ≤ S64x40x64.size a
  h_S64x17x64 : 0 < S64x17x64.numel
  broadcasts_S64x1x64_S64x17x64 : S64x1x64.Broadcasts S64x17x64
  inb_S64x780x64_S64x17x64_0_627_0 : ∀ a, (![0, 627, 0] : Fin 3 → Nat) a + S64x17x64.size a ≤ S64x780x64.size a
  inb_S64x40x64_S64x1x64_0_23_0 : ∀ a, (![0, 23, 0] : Fin 3 → Nat) a + S64x1x64.size a ≤ S64x40x64.size a
  inb_S64x40x64_S64x16x64_0_24_0 : ∀ a, (![0, 24, 0] : Fin 3 → Nat) a + S64x16x64.size a ≤ S64x40x64.size a
  h_S64x16x64 : 0 < S64x16x64.numel
  broadcasts_S64x1x64_S64x16x64 : S64x1x64.Broadcasts S64x16x64
  inb_S64x780x64_S64x16x64_0_644_0 : ∀ a, (![0, 644, 0] : Fin 3 → Nat) a + S64x16x64.size a ≤ S64x780x64.size a
  inb_S64x40x64_S64x1x64_0_24_0 : ∀ a, (![0, 24, 0] : Fin 3 → Nat) a + S64x1x64.size a ≤ S64x40x64.size a
  inb_S64x40x64_S64x15x64_0_25_0 : ∀ a, (![0, 25, 0] : Fin 3 → Nat) a + S64x15x64.size a ≤ S64x40x64.size a
  h_S64x15x64 : 0 < S64x15x64.numel
  broadcasts_S64x1x64_S64x15x64 : S64x1x64.Broadcasts S64x15x64
  inb_S64x780x64_S64x15x64_0_660_0 : ∀ a, (![0, 660, 0] : Fin 3 → Nat) a + S64x15x64.size a ≤ S64x780x64.size a
  inb_S64x40x64_S64x1x64_0_25_0 : ∀ a, (![0, 25, 0] : Fin 3 → Nat) a + S64x1x64.size a ≤ S64x40x64.size a
  inb_S64x40x64_S64x14x64_0_26_0 : ∀ a, (![0, 26, 0] : Fin 3 → Nat) a + S64x14x64.size a ≤ S64x40x64.size a
  h_S64x14x64 : 0 < S64x14x64.numel
  broadcasts_S64x1x64_S64x14x64 : S64x1x64.Broadcasts S64x14x64
  inb_S64x780x64_S64x14x64_0_675_0 : ∀ a, (![0, 675, 0] : Fin 3 → Nat) a + S64x14x64.size a ≤ S64x780x64.size a
  inb_S64x40x64_S64x1x64_0_26_0 : ∀ a, (![0, 26, 0] : Fin 3 → Nat) a + S64x1x64.size a ≤ S64x40x64.size a
  inb_S64x40x64_S64x13x64_0_27_0 : ∀ a, (![0, 27, 0] : Fin 3 → Nat) a + S64x13x64.size a ≤ S64x40x64.size a
  h_S64x13x64 : 0 < S64x13x64.numel
  broadcasts_S64x1x64_S64x13x64 : S64x1x64.Broadcasts S64x13x64
  inb_S64x780x64_S64x13x64_0_689_0 : ∀ a, (![0, 689, 0] : Fin 3 → Nat) a + S64x13x64.size a ≤ S64x780x64.size a
  inb_S64x40x64_S64x1x64_0_27_0 : ∀ a, (![0, 27, 0] : Fin 3 → Nat) a + S64x1x64.size a ≤ S64x40x64.size a
  inb_S64x40x64_S64x12x64_0_28_0 : ∀ a, (![0, 28, 0] : Fin 3 → Nat) a + S64x12x64.size a ≤ S64x40x64.size a
  h_S64x12x64 : 0 < S64x12x64.numel
  broadcasts_S64x1x64_S64x12x64 : S64x1x64.Broadcasts S64x12x64
  inb_S64x780x64_S64x12x64_0_702_0 : ∀ a, (![0, 702, 0] : Fin 3 → Nat) a + S64x12x64.size a ≤ S64x780x64.size a
  inb_S64x40x64_S64x1x64_0_28_0 : ∀ a, (![0, 28, 0] : Fin 3 → Nat) a + S64x1x64.size a ≤ S64x40x64.size a
  inb_S64x40x64_S64x11x64_0_29_0 : ∀ a, (![0, 29, 0] : Fin 3 → Nat) a + S64x11x64.size a ≤ S64x40x64.size a
  h_S64x11x64 : 0 < S64x11x64.numel
  broadcasts_S64x1x64_S64x11x64 : S64x1x64.Broadcasts S64x11x64
  inb_S64x780x64_S64x11x64_0_714_0 : ∀ a, (![0, 714, 0] : Fin 3 → Nat) a + S64x11x64.size a ≤ S64x780x64.size a
  inb_S64x40x64_S64x1x64_0_29_0 : ∀ a, (![0, 29, 0] : Fin 3 → Nat) a + S64x1x64.size a ≤ S64x40x64.size a
  inb_S64x40x64_S64x10x64_0_30_0 : ∀ a, (![0, 30, 0] : Fin 3 → Nat) a + S64x10x64.size a ≤ S64x40x64.size a
  h_S64x10x64 : 0 < S64x10x64.numel
  broadcasts_S64x1x64_S64x10x64 : S64x1x64.Broadcasts S64x10x64
  inb_S64x780x64_S64x10x64_0_725_0 : ∀ a, (![0, 725, 0] : Fin 3 → Nat) a + S64x10x64.size a ≤ S64x780x64.size a
  inb_S64x40x64_S64x1x64_0_30_0 : ∀ a, (![0, 30, 0] : Fin 3 → Nat) a + S64x1x64.size a ≤ S64x40x64.size a
  inb_S64x40x64_S64x9x64_0_31_0 : ∀ a, (![0, 31, 0] : Fin 3 → Nat) a + S64x9x64.size a ≤ S64x40x64.size a
  h_S64x9x64 : 0 < S64x9x64.numel
  broadcasts_S64x1x64_S64x9x64 : S64x1x64.Broadcasts S64x9x64
  inb_S64x780x64_S64x9x64_0_735_0 : ∀ a, (![0, 735, 0] : Fin 3 → Nat) a + S64x9x64.size a ≤ S64x780x64.size a
  inb_S64x40x64_S64x1x64_0_31_0 : ∀ a, (![0, 31, 0] : Fin 3 → Nat) a + S64x1x64.size a ≤ S64x40x64.size a
  inb_S64x40x64_S64x8x64_0_32_0 : ∀ a, (![0, 32, 0] : Fin 3 → Nat) a + S64x8x64.size a ≤ S64x40x64.size a
  h_S64x8x64 : 0 < S64x8x64.numel
  broadcasts_S64x1x64_S64x8x64 : S64x1x64.Broadcasts S64x8x64
  inb_S64x780x64_S64x8x64_0_744_0 : ∀ a, (![0, 744, 0] : Fin 3 → Nat) a + S64x8x64.size a ≤ S64x780x64.size a
  inb_S64x40x64_S64x1x64_0_32_0 : ∀ a, (![0, 32, 0] : Fin 3 → Nat) a + S64x1x64.size a ≤ S64x40x64.size a
  inb_S64x40x64_S64x7x64_0_33_0 : ∀ a, (![0, 33, 0] : Fin 3 → Nat) a + S64x7x64.size a ≤ S64x40x64.size a
  h_S64x7x64 : 0 < S64x7x64.numel
  broadcasts_S64x1x64_S64x7x64 : S64x1x64.Broadcasts S64x7x64
  inb_S64x780x64_S64x7x64_0_752_0 : ∀ a, (![0, 752, 0] : Fin 3 → Nat) a + S64x7x64.size a ≤ S64x780x64.size a
  inb_S64x40x64_S64x1x64_0_33_0 : ∀ a, (![0, 33, 0] : Fin 3 → Nat) a + S64x1x64.size a ≤ S64x40x64.size a
  inb_S64x40x64_S64x6x64_0_34_0 : ∀ a, (![0, 34, 0] : Fin 3 → Nat) a + S64x6x64.size a ≤ S64x40x64.size a
  h_S64x6x64 : 0 < S64x6x64.numel
  broadcasts_S64x1x64_S64x6x64 : S64x1x64.Broadcasts S64x6x64
  inb_S64x780x64_S64x6x64_0_759_0 : ∀ a, (![0, 759, 0] : Fin 3 → Nat) a + S64x6x64.size a ≤ S64x780x64.size a
  inb_S64x40x64_S64x1x64_0_34_0 : ∀ a, (![0, 34, 0] : Fin 3 → Nat) a + S64x1x64.size a ≤ S64x40x64.size a
  inb_S64x40x64_S64x5x64_0_35_0 : ∀ a, (![0, 35, 0] : Fin 3 → Nat) a + S64x5x64.size a ≤ S64x40x64.size a
  h_S64x5x64 : 0 < S64x5x64.numel
  broadcasts_S64x1x64_S64x5x64 : S64x1x64.Broadcasts S64x5x64
  inb_S64x780x64_S64x5x64_0_765_0 : ∀ a, (![0, 765, 0] : Fin 3 → Nat) a + S64x5x64.size a ≤ S64x780x64.size a
  inb_S64x40x64_S64x1x64_0_35_0 : ∀ a, (![0, 35, 0] : Fin 3 → Nat) a + S64x1x64.size a ≤ S64x40x64.size a
  inb_S64x40x64_S64x4x64_0_36_0 : ∀ a, (![0, 36, 0] : Fin 3 → Nat) a + S64x4x64.size a ≤ S64x40x64.size a
  h_S64x4x64 : 0 < S64x4x64.numel
  broadcasts_S64x1x64_S64x4x64 : S64x1x64.Broadcasts S64x4x64
  inb_S64x780x64_S64x4x64_0_770_0 : ∀ a, (![0, 770, 0] : Fin 3 → Nat) a + S64x4x64.size a ≤ S64x780x64.size a
  inb_S64x40x64_S64x1x64_0_36_0 : ∀ a, (![0, 36, 0] : Fin 3 → Nat) a + S64x1x64.size a ≤ S64x40x64.size a
  inb_S64x40x64_S64x3x64_0_37_0 : ∀ a, (![0, 37, 0] : Fin 3 → Nat) a + S64x3x64.size a ≤ S64x40x64.size a
  h_S64x3x64 : 0 < S64x3x64.numel
  broadcasts_S64x1x64_S64x3x64 : S64x1x64.Broadcasts S64x3x64
  inb_S64x780x64_S64x3x64_0_774_0 : ∀ a, (![0, 774, 0] : Fin 3 → Nat) a + S64x3x64.size a ≤ S64x780x64.size a
  inb_S64x40x64_S64x1x64_0_37_0 : ∀ a, (![0, 37, 0] : Fin 3 → Nat) a + S64x1x64.size a ≤ S64x40x64.size a
  inb_S64x40x64_S64x2x64_0_38_0 : ∀ a, (![0, 38, 0] : Fin 3 → Nat) a + S64x2x64.size a ≤ S64x40x64.size a
  h_S64x2x64 : 0 < S64x2x64.numel
  broadcasts_S64x1x64_S64x2x64 : S64x1x64.Broadcasts S64x2x64
  inb_S64x780x64_S64x2x64_0_777_0 : ∀ a, (![0, 777, 0] : Fin 3 → Nat) a + S64x2x64.size a ≤ S64x780x64.size a
  inb_S64x40x64_S64x1x64_0_38_0 : ∀ a, (![0, 38, 0] : Fin 3 → Nat) a + S64x1x64.size a ≤ S64x40x64.size a
  inb_S64x40x64_S64x1x64_0_39_0 : ∀ a, (![0, 39, 0] : Fin 3 → Nat) a + S64x1x64.size a ≤ S64x40x64.size a
  inb_S64x780x64_S64x1x64_0_779_0 : ∀ a, (![0, 779, 0] : Fin 3 → Nat) a + S64x1x64.size a ≤ S64x780x64.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x40x64.size a ≤ S4096x40x64.size a
  hwx0_0 : ∀ i : grid0.Coords, EltTy.bits .f32 = 32 ∨ (Rect.block (s := S4096x40x64) S64x40x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x780x64.size a ≤ S4096x780x64.size a
  hwx0_1 : ∀ i : grid0.Coords, EltTy.bits .f32 = 32 ∨ (Rect.block (s := S4096x780x64) S64x780x64.size (cc0_transform_1 i) (hinb0_1 i)).WholeWords (EltTy.packing .f32)

variable [Facts₀]

abbrev win0_0 : Pipeline.Window sig grid0 :=
  Pipeline.Window.ofSpec (Memref.whole main_arg0) S64x40x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x780x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x40x64 : Shape := ⟨3, ![4096, 40, 64]⟩
abbrev S780 : Shape := ⟨1, ![780]⟩
abbrev S_ : Shape := ⟨0, ![]⟩
abbrev S780x1 : Shape := ⟨2, ![780, 1]⟩
abbrev S4096x780x64 : Shape := ⟨3, ![4096, 780, 64]⟩

abbrev nBuf : Space → Nat
  | .hbm => 18
  | .vmem => 0
  | .smem => 0
  | _ => 0

abbrev bufTy : (tb : Table) → Fin (tcTables nBuf tb) → BufTy
  | .hbm, ⟨0, _⟩ => ⟨S4096x40x64, .f32⟩
  | .hbm, ⟨1, _⟩ => ⟨S780, .i32⟩
  | .hbm, ⟨2, _⟩ => ⟨S780, .i1⟩
  | .hbm, ⟨3, _⟩ => ⟨S780, .i32⟩
  | .hbm, ⟨4, _⟩ => ⟨S780, .i1⟩
  | .hbm, ⟨5, _⟩ => ⟨S_, .i32⟩
  | .hbm, ⟨6, _⟩ => ⟨S780, .i32⟩
  | .hbm, ⟨7, _⟩ => ⟨S780, .i32⟩
  | .hbm, ⟨8, _⟩ => ⟨S780, .i32⟩
  | .hbm, ⟨9, _⟩ => ⟨S780x1, .i32⟩
  | .hbm, ⟨10, _⟩ => ⟨S4096x780x64, .f32⟩
  | .hbm, ⟨11, _⟩ => ⟨S_, .i32⟩
  | .hbm, ⟨12, _⟩ => ⟨S780, .i32⟩
  | .hbm, ⟨13, _⟩ => ⟨S780, .i32⟩
  | .hbm, ⟨14, _⟩ => ⟨S780, .i32⟩
  | .hbm, ⟨15, _⟩ => ⟨S780x1, .i32⟩
  | .hbm, ⟨16, _⟩ => ⟨S4096x780x64, .f32⟩
  | .hbm, ⟨17, _⟩ => ⟨S4096x780x64, .f32⟩
  | _, _ => ⟨S4096x40x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_c_2 : Ref sig .tc := ⟨.hbm, 4, rfl⟩
abbrev main_c_3 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩

abbrev nD : Nat := 1
abbrev τ : Topo := Topo.v7x

variable {F : FTy → Type} [FloatOps F]

class Facts₀ : Prop where
  bcast_S_S780 : S_.BroadcastsInDim S780 (![] : Fin 0 → Fin S780.rank)
  bcast_S780_S780x1_0 : S780.BroadcastsInDim S780x1 (![0] : Fin 1 → Fin S780x1.rank)
  gather_S4096x40x64_S780x1_S4096x780x64_02_1_n_n_1_1_4096164_wf : GatherDims.WF S4096x40x64 S780x1 S4096x780x64 [0, 2] [1] [] [1] [] 1 ![4096, 1, 64]

variable [Facts₀]

def gather_S4096x40x64_S780x1_S4096x780x64_02_1_n_n_1_1_4096164 : GatherDims S4096x40x64 S780x1 S4096x780x64 where
  offsetDims := [0, 2]
  collapsedSliceDims := [1]
  operandBatchingDims := []
  startIndicesBatchingDims := []
  startIndexMap := [1]
  indexVectorDim := 1
  sliceSizes := ![4096, 1, 64]
  wf := gather_S4096x40x64_S780x1_S4096x780x64_02_1_n_n_1_1_4096164_wf

class Facts : Prop extends Facts₀ where

variable [Facts]
-- ==== Proof.Pairs.lean ====
/-
  The pairs of feature rows and the array of their products.

  The pairs (i, j) with i < j < 40 are listed row by row: first the 39 pairs (0, 1) … (0, 39), then the 38 pairs
  (1, 2) … (1, 39), and so on down to the single pair (38, 39); there are 780 of them. `lo p` and `hi p` are the two
  members of the p-th pair. The array of pairwise products of an array `x` over (batch, row, feature) is
  `prod x (b, p, e) = x (b, lo p, e) * x (b, hi p, e)`, over (batch, pair, feature).

  Row i of the list starts at position 0, 39, 77, 114, … (the rows before it have 39, 38, … members), and its k-th
  member is the pair (i, i + 1 + k): `lo_row`, `hi_row` say so for a row given by its start and its length.
-/
import Idealize.ShloMosaic.PureOps.Ideal
import Idealize.ShloMosaic.Lib.ValueIdx

noncomputable section

namespace Cert.Pairs

open Idealize.ShloMosaic Idealize.ShloMosaic.ValueIdx

/-- `walk len i p` is the pair at position `p` counted from the start of row `i`, a row of `len` members followed by
    rows of `len - 1`, `len - 2`, … members: inside the row it is `(i, i + 1 + p)`, past it the walk goes on from the
    next row. -/
def walk : ℕ → ℕ → ℕ → ℕ × ℕ
  | 0, i, _ => (i, i + 1)
  | len + 1, i, p => if p < len + 1 then (i, i + 1 + p) else walk len (i + 1) (p - (len + 1))

/-- The smaller member of the p-th pair. -/
def lo (p : Fin 780) : Fin 40 := ⟨min (walk 39 0 p.val).1 39, by omega⟩
/-- The larger member of the p-th pair. -/
def hi (p : Fin 780) : Fin 40 := ⟨min (walk 39 0 p.val).2 39, by omega⟩

/-- Inside a row the walk stops at once. -/
theorem walk_inside (len i p : ℕ) (h : p < len) : walk len i p = (i, i + 1 + p) := by
  cases len with
  | zero => omega
  | succ n => rw [walk, if_pos h]

/-- Past a row the walk goes on from the next one. -/
theorem walk_past (len i p : ℕ) : walk (len + 1) i (len + 1 + p) = walk len (i + 1) p := by
  rw [walk, if_neg (by omega)]
  congr 1
  omega

/-- Where row `i` starts: the rows before it have 39, 38, …, 40 - i members. -/
def rowStart : ℕ → ℕ
  | 0 => 0
  | i + 1 => rowStart i + (39 - i)

/-- From the start of row `i` the walk over the whole list is the walk over the rows from `i` on. -/
theorem walk_rowStart (i p : ℕ) (hi : i ≤ 39) : walk 39 0 (rowStart i + p) = walk (39 - i) i p := by
  induction i generalizing p with
  | zero => simp [rowStart]
  | succ n ih =>
    have hn : n ≤ 39 := by omega
    rw [rowStart, Nat.add_assoc, ih _ hn]
    have e : 39 - n = (39 - (n + 1)) + 1 := by omega
    rw [e, walk_past]

/-- Member `k` of row `i` is the pair `(i, i + 1 + k)`. -/
theorem walk_row (i k : ℕ) (hk : i + k < 39) : walk 39 0 (rowStart i + k) = (i, i + 1 + k) := by
  rw [walk_rowStart i k (by omega), walk_inside _ _ _ (by omega)]

/-- The smaller member along a row given by its number `i`, its start `off` and a position `k` inside it. -/
theorem lo_row (i off k : ℕ) (hoff : off = rowStart i) (hk : i + k < 39) (h : off + k < 780) :
    lo ⟨off + k, h⟩ = ⟨i, by omega⟩ := by
  subst hoff
  apply Fin.ext
  show min (walk 39 0 (rowStart i + k)).1 39 = i
  rw [walk_row i k hk]
  show min i 39 = i
  omega

/-- The larger member along the same row. -/
theorem hi_row (i off k : ℕ) (hoff : off = rowStart i) (hk : i + k < 39) (h : off + k < 780) :
    hi ⟨off + k, h⟩ = ⟨i + 1 + k, by omega⟩ := by
  subst hoff
  apply Fin.ext
  show min (walk 39 0 (rowStart i + k)).2 39 = i + 1 + k
  rw [walk_row i k hk]
  show min (i + 1 + k) 39 = i + 1 + k
  omega

/-- The array of pairwise products of `x`, over (batch, pair, feature), for any batch extent. -/
def prod {B : ℕ} (x : (⟨3, ![B, 40, 64]⟩ : Shape).Idx → EReal) : (⟨3, ![B, 780, 64]⟩ : Shape).Idx → EReal :=
  fun y => x (ix3 (n0 := B) (n1 := 40) (n2 := 64) (y 0) (lo (y 1)) (y 2))
    * x (ix3 (n0 := B) (n1 := 40) (n2 := 64) (y 0) (hi (y 1)) (y 2))

theorem prod_apply {B : ℕ} (x : (⟨3, ![B, 40, 64]⟩ : Shape).Idx → EReal) (b : Fin B) (p : Fin 780) (e : Fin 64) :
    prod x (ix3 b p e) = x (ix3 b (lo p) e) * x (ix3 b (hi p) e) := rfl

end Cert.Pairs

end
-- ==== Proof.KernelPiece.lean ====
/-
  One row of stored products is a block of the array of pairwise products.

  For row `i` of the list of pairs the kernel takes feature row `i` of its input block (a slab of one row), repeats
  it along the row axis, multiplies it entry by entry with the slab of the rows `i + 1, …, 39` after it, and stores
  the product at rows `rowStart i, …` of the output block. Entry `(b, k, e)` of that product is
  `X (b, i, e) * X (b, i + 1 + k, e)`, and position `rowStart i + k` of the list is the pair `(i, i + 1 + k)`, so the
  stored slab is the block of `prod X` its rectangle names (`row_piece`). The last row has one member and the kernel
  multiplies the two one-row slabs directly (`last_piece`).
-/
import Idealize.ShloMosaic.Lib.Pipeline.Value
import Idealize.ShloMosaic.Lib.ValueIdx
import proofs.«158834_j17463337025632_1_alg».proof.Proof.Pairs

noncomputable section

namespace Cert.Pairs

open Idealize.ShloMosaic Idealize.ShloMosaic.ValueIdx

/-- The input block: 64 batch entries, 40 feature rows, 64 features. -/
abbrev Sx : Shape := ⟨3, ![64, 40, 64]⟩
/-- The output block: 64 batch entries, 780 pairs, 64 features. -/
abbrev So : Shape := ⟨3, ![64, 780, 64]⟩

/-- An entry of a slab of `X` that starts at row `r`: the slab's `(b, k, e)` is `X (b, r + k, e)`. -/
theorem ld_slab (L r : ℕ) (X : Sx.Idx → EReal)
    (inb : ∀ a, (![0, r, 0] : Fin 3 → ℕ) a + (![64, L, 64] : Fin 3 → ℕ) a ≤ Sx.size a)
    (b : Fin 64) (k : Fin L) (e : Fin 64) (h : r + k.val < 40) :
    View.ld (Val := Elt Ideal) (e' := EltTy.f32) X (Rect.unit (s := Sx) ![0, r, 0] ![64, L, 64] inb) (ix3 b k e) = X (ix3 b ⟨r + k.val, h⟩ e) := by
  show X ((Rect.unit (s := Sx) ![0, r, 0] ![64, L, 64] inb).idx (ix3 b k e)) = _
  refine congrArg X (funext fun a => Fin.ext ?_)
  match a with
  | ⟨0, _⟩ => show 0 + 1 * b.val = b.val; omega
  | ⟨1, _⟩ => show r + 1 * k.val = r + k.val; omega
  | ⟨2, _⟩ => show 0 + 1 * e.val = e.val; omega

/-- Where entry `(b, k, e)` of a slab stored at row `off` of the output block lands: `(b, off + k, e)`. -/
theorem emb_slab (L off : ℕ)
    (inb : ∀ a, (![0, off, 0] : Fin 3 → ℕ) a + (![64, L, 64] : Fin 3 → ℕ) a ≤ So.size a)
    (b : Fin 64) (k : Fin L) (e : Fin 64) (h : off + k.val < 780) :
    (Rect.unit (s := So) ![0, off, 0] ![64, L, 64] inb).emb (ix3 b k e) = ix3 b ⟨off + k.val, h⟩ e := by
  refine funext fun a => Fin.ext ?_
  match a with
  | ⟨0, _⟩ => show 0 + 1 * b.val = b.val; omega
  | ⟨1, _⟩ => show off + 1 * k.val = off + k.val; omega
  | ⟨2, _⟩ => show 0 + 1 * e.val = e.val; omega

/-- A one-row slab repeated along the row axis, read at `(b, k, e)`: the slab's `(b, 0, e)`. -/
theorem repeat_row (L : ℕ) (row : (⟨3, ![64, 1, 64]⟩ : Shape).Idx → EReal)
    (hb : (⟨3, ![64, 1, 64]⟩ : Shape).Broadcasts ⟨3, ![64, L, 64]⟩) (b : Fin 64) (k : Fin L) (e : Fin 64) :
    broadcastTo ⟨3, ![64, L, 64]⟩ row hb (ix3 b k e) = row (ix3 b (0 : Fin 1) e) := by
  refine broadcastTo_apply row hb (ix3 b k e) (ix3 b (0 : Fin 1) e) ?_
  intro a
  match a with
  | ⟨0, _⟩ => rfl
  | ⟨1, _⟩ => rfl
  | ⟨2, _⟩ => rfl

/-- Row `i`'s stored slab is the block of `prod X` at rows `rowStart i, …` of the output block. `j` is the first row
    of the slab of later rows and `off` the row the product is stored at, each given with its value. -/
theorem row_piece (L : ℕ) (X : Sx.Idx → EReal) (i j off : ℕ)
    (hj : j = i + 1) (hoff : off = rowStart i) (hL : i + L = 39)
    (inbO : ∀ a, (![0, off, 0] : Fin 3 → ℕ) a + (![64, L, 64] : Fin 3 → ℕ) a ≤ So.size a)
    (inbR : ∀ a, (![0, i, 0] : Fin 3 → ℕ) a + (![64, 1, 64] : Fin 3 → ℕ) a ≤ Sx.size a)
    (inbT : ∀ a, (![0, j, 0] : Fin 3 → ℕ) a + (![64, L, 64] : Fin 3 → ℕ) a ≤ Sx.size a)
    (hb : (⟨3, ![64, 1, 64]⟩ : Shape).Broadcasts ⟨3, ![64, L, 64]⟩)
    (x : (Rect.unit (s := So) ![0, off, 0] ![64, L, 64] inbO).shape.Idx) :
    mulf (F := Ideal) (φ := .f32)
        (broadcastTo ⟨3, ![64, L, 64]⟩ (View.ld (Val := Elt Ideal) (e' := EltTy.f32) X (Rect.unit (s := Sx) ![0, i, 0] ![64, 1, 64] inbR)) hb)
        (View.ld (Val := Elt Ideal) (e' := EltTy.f32) X (Rect.unit (s := Sx) ![0, j, 0] ![64, L, 64] inbT)) x
      = prod X ((Rect.unit (s := So) ![0, off, 0] ![64, L, 64] inbO).emb x) := by
  obtain ⟨b, k, e, rfl⟩ : ∃ (b : Fin 64) (k : Fin L) (e : Fin 64), x = ix3 b k e := ⟨x 0, x 1, x 2, eq_ix3 x⟩
  have hk : k.val < L := k.isLt
  have hO : off + k.val < 780 := by have := inbO 1; simp at this; omega
  rw [mulf_apply, repeat_row, ld_slab 1 i X inbR b (0 : Fin 1) e (by omega), ld_slab L j X inbT b k e (by omega),
    emb_slab L off inbO b k e hO, prod_apply, lo_row i off k.val hoff (by omega) hO, hi_row i off k.val hoff (by omega) hO]
  subst hj
  rfl

/-- The last row's slab (the single pair `(38, 39)`, stored at row 779): the two one-row slabs multiplied. -/
theorem last_piece (X : Sx.Idx → EReal)
    (inbO : ∀ a, (![0, 779, 0] : Fin 3 → ℕ) a + (![64, 1, 64] : Fin 3 → ℕ) a ≤ So.size a)
    (inbR : ∀ a, (![0, 38, 0] : Fin 3 → ℕ) a + (![64, 1, 64] : Fin 3 → ℕ) a ≤ Sx.size a)
    (inbT : ∀ a, (![0, 39, 0] : Fin 3 → ℕ) a + (![64, 1, 64] : Fin 3 → ℕ) a ≤ Sx.size a)
    (x : (Rect.unit (s := So) ![0, 779, 0] ![64, 1, 64] inbO).shape.Idx) :
    mulf (F := Ideal) (φ := .f32)
        (View.ld (Val := Elt Ideal) (e' := EltTy.f32) X (Rect.unit (s := Sx) ![0, 38, 0] ![64, 1, 64] inbR))
        (View.ld (Val := Elt Ideal) (e' := EltTy.f32) X (Rect.unit (s := Sx) ![0, 39, 0] ![64, 1, 64] inbT)) x
      = prod X ((Rect.unit (s := So) ![0, 779, 0] ![64, 1, 64] inbO).emb x) := by
  obtain ⟨b, k, e, rfl⟩ : ∃ (b : Fin 64) (k : Fin 1) (e : Fin 64), x = ix3 b k e := ⟨x 0, x 1, x 2, eq_ix3 x⟩
  have hk : k.val < 1 := k.isLt
  have hO : 779 + k.val < 780 := by omega
  rw [mulf_apply, ld_slab 1 38 X inbR b k e (by omega), ld_slab 1 39 X inbT b k e (by omega),
    emb_slab 1 779 inbO b k e hO, prod_apply, lo_row 38 779 k.val (by decide) (by omega) hO,
    hi_row 38 779 k.val (by decide) (by omega) hO]
  have hk0 : k.val = 0 := by omega
  simp only [hk0]

end Cert.Pairs

end
-- ==== Proof.KernelBlock.lean ====
/-
  What the kernel body leaves in its output block.

  The body makes 39 stores, one per row of the list of pairs: row `i`'s store writes, at rows `rowStart i, …` of the
  output block, feature row `i` of the input block repeated and multiplied with the rows after it (the casts of the
  one-row slab to a matrix and back cancel). Each stored slab is the block of `prod x0` its rectangle names
  (`Cert.Pairs.row_piece`, `last_piece`), and the stores cover the output block, so whatever order they are made in
  the block ends holding `prod x0`: entry `(b, p, e)` is `x0 (b, lo p, e) * x0 (b, hi p, e)`.

  The 39 lines below name, for each store, the row's length, its number, the first of the later rows, and the row of
  the output block it is stored at.
-/
import proofs.«158834_j17463337025632_1_alg».proof.Proof.Gen.KernelIdeal.Frame
import proofs.«158834_j17463337025632_1_alg».proof.Proof.KernelPiece

set_option maxRecDepth 16384

noncomputable section

namespace Cert.KernelIdeal.Block

open Cert.KernelIdeal Cert.KernelIdeal.Gen Idealize.ShloMosaic Idealize.ShloMosaic.TcCoe Idealize.SL.Sem Idealize.ShloMosaic.Tactic

/-- After the body the output block holds the pairwise products of the input block. -/
theorem out_eq (c : Dev nD) (i : grid0.Coords) (arg1 : Memref sig .tc .vmem S64x40x64 .f32) (harg1 : arg1.IsWhole)
    (arg2 : Memref sig .tc .vmem S64x780x64 .f32) (harg2 : arg2.IsWhole) (x0 : Vec Ideal S64x40x64 .f32) :
    out0_A_1 (F := Ideal) c i arg1 harg1 arg2 harg2 x0 = Cert.Pairs.prod (B := 64) x0 := by
  unfold out0_A_1
  rw [View.read_writes_junk_eq_canon]
  funext y
  refine View.canon_apply_of_pieces (Cert.Pairs.prod (B := 64) x0) _ ?_ y (cover0_A_1 c i arg1 harg1 arg2 harg2 x0 y)
  unfold kernelRun0_A
  dsimp only
  sl_unfold_words
  simp only [View.readAt_eq_ld, harg1.read_unread]
  unfold k0_pay1 k0_pay2 k0_pay3 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26 k0_pay27 k0_pay28 k0_pay29 k0_pay30 k0_pay31 k0_pay32 k0_pay33 k0_pay34 k0_pay35 k0_pay36 k0_pay37 k0_pay38 k0_pay39 k0_pay40 k0_pay41 k0_pay42 k0_pay43
  dsimp only
  simp only [shapeCast_shapeCast]
  simp only [List.forall_mem_cons, List.not_mem_nil, false_imp_iff, implies_true, and_true]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  · exact fun x => Cert.Pairs.last_piece x0 _ _ _ x
  · exact fun x => Cert.Pairs.row_piece 2 x0 37 38 777 rfl (by decide) (by decide) _ _ _ _ x
  · exact fun x => Cert.Pairs.row_piece 3 x0 36 37 774 rfl (by decide) (by decide) _ _ _ _ x
  · exact fun x => Cert.Pairs.row_piece 4 x0 35 36 770 rfl (by decide) (by decide) _ _ _ _ x
  · exact fun x => Cert.Pairs.row_piece 5 x0 34 35 765 rfl (by decide) (by decide) _ _ _ _ x
  · exact fun x => Cert.Pairs.row_piece 6 x0 33 34 759 rfl (by decide) (by decide) _ _ _ _ x
  · exact fun x => Cert.Pairs.row_piece 7 x0 32 33 752 rfl (by decide) (by decide) _ _ _ _ x
  · exact fun x => Cert.Pairs.row_piece 8 x0 31 32 744 rfl (by decide) (by decide) _ _ _ _ x
  · exact fun x => Cert.Pairs.row_piece 9 x0 30 31 735 rfl (by decide) (by decide) _ _ _ _ x
  · exact fun x => Cert.Pairs.row_piece 10 x0 29 30 725 rfl (by decide) (by decide) _ _ _ _ x
  · exact fun x => Cert.Pairs.row_piece 11 x0 28 29 714 rfl (by decide) (by decide) _ _ _ _ x
  · exact fun x => Cert.Pairs.row_piece 12 x0 27 28 702 rfl (by decide) (by decide) _ _ _ _ x
  · exact fun x => Cert.Pairs.row_piece 13 x0 26 27 689 rfl (by decide) (by decide) _ _ _ _ x
  · exact fun x => Cert.Pairs.row_piece 14 x0 25 26 675 rfl (by decide) (by decide) _ _ _ _ x
  · exact fun x => Cert.Pairs.row_piece 15 x0 24 25 660 rfl (by decide) (by decide) _ _ _ _ x
  · exact fun x => Cert.Pairs.row_piece 16 x0 23 24 644 rfl (by decide) (by decide) _ _ _ _ x
  · exact fun x => Cert.Pairs.row_piece 17 x0 22 23 627 rfl (by decide) (by decide) _ _ _ _ x
  · exact fun x => Cert.Pairs.row_piece 18 x0 21 22 609 rfl (by decide) (by decide) _ _ _ _ x
  · exact fun x => Cert.Pairs.row_piece 19 x0 20 21 590 rfl (by decide) (by decide) _ _ _ _ x
  · exact fun x => Cert.Pairs.row_piece 20 x0 19 20 570 rfl (by decide) (by decide) _ _ _ _ x
  · exact fun x => Cert.Pairs.row_piece 21 x0 18 19 549 rfl (by decide) (by decide) _ _ _ _ x
  · exact fun x => Cert.Pairs.row_piece 22 x0 17 18 527 rfl (by decide) (by decide) _ _ _ _ x
  · exact fun x => Cert.Pairs.row_piece 23 x0 16 17 504 rfl (by decide) (by decide) _ _ _ _ x
  · exact fun x => Cert.Pairs.row_piece 24 x0 15 16 480 rfl (by decide) (by decide) _ _ _ _ x
  · exact fun x => Cert.Pairs.row_piece 25 x0 14 15 455 rfl (by decide) (by decide) _ _ _ _ x
  · exact fun x => Cert.Pairs.row_piece 26 x0 13 14 429 rfl (by decide) (by decide) _ _ _ _ x
  · exact fun x => Cert.Pairs.row_piece 27 x0 12 13 402 rfl (by decide) (by decide) _ _ _ _ x
  · exact fun x => Cert.Pairs.row_piece 28 x0 11 12 374 rfl (by decide) (by decide) _ _ _ _ x
  · exact fun x => Cert.Pairs.row_piece 29 x0 10 11 345 rfl (by decide) (by decide) _ _ _ _ x
  · exact fun x => Cert.Pairs.row_piece 30 x0 9 10 315 rfl (by decide) (by decide) _ _ _ _ x
  · exact fun x => Cert.Pairs.row_piece 31 x0 8 9 284 rfl (by decide) (by decide) _ _ _ _ x
  · exact fun x => Cert.Pairs.row_piece 32 x0 7 8 252 rfl (by decide) (by decide) _ _ _ _ x
  · exact fun x => Cert.Pairs.row_piece 33 x0 6 7 219 rfl (by decide) (by decide) _ _ _ _ x
  · exact fun x => Cert.Pairs.row_piece 34 x0 5 6 185 rfl (by decide) (by decide) _ _ _ _ x
  · exact fun x => Cert.Pairs.row_piece 35 x0 4 5 150 rfl (by decide) (by decide) _ _ _ _ x
  · exact fun x => Cert.Pairs.row_piece 36 x0 3 4 114 rfl (by decide) (by decide) _ _ _ _ x
  · exact fun x => Cert.Pairs.row_piece 37 x0 2 3 77 rfl (by decide) (by decide) _ _ _ _ x
  · exact fun x => Cert.Pairs.row_piece 38 x0 1 2 39 rfl (by decide) (by decide) _ _ _ _ x
  · exact fun x => Cert.Pairs.row_piece 39 x0 0 1 0 rfl (by decide) (by decide) _ _ _ _ x

end Cert.KernelIdeal.Block

end
-- ==== Proof.KernelValue.lean ====
/-
  The kernel's result array is the array of pairwise products of its argument.

  The grid has 64 points; point `t` works on batch entries `64 t, …, 64 t + 63`: its input block is those entries of
  the argument (all 40 rows, all 64 features) and its output block the same entries of the result (all 780 pairs, all
  64 features). Since a pairwise product at `(b, p, e)` reads the argument only at batch entry `b`, the block of
  products of the input block is the block of the products of the whole argument (`flushed_eq`); the 64 output blocks
  cover the result array (`cover`), so after the run it holds `prod` of the argument everywhere (`final`, `run`).
-/
import proofs.«158834_j17463337025632_1_alg».proof.Proof.Gen.KernelIdeal.Value
import proofs.«158834_j17463337025632_1_alg».proof.Proof.KernelBlock

set_option maxRecDepth 16384

noncomputable section

namespace Cert.KernelIdeal.Whole

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The two windows' block indices over the grid: both move along the batch axis together and stay at 0 on the other
    two axes; there are 64 blocks. -/
theorem idx_facts : ∀ t : Fin cfg0.N,
    win0_0.index t (0 : Fin 3) = win0_1.index t (0 : Fin 3) ∧ win0_0.index t (1 : Fin 3) = 0 ∧ win0_0.index t (2 : Fin 3) = 0
    ∧ win0_1.index t (1 : Fin 3) = 0 ∧ win0_1.index t (2 : Fin 3) = 0 ∧ win0_1.index t (0 : Fin 3) ≤ 63 :=
  (by decide +kernel : ∀ t : Fin grid0.N, _)

/-- Every block of 64 batch entries is some point's. -/
theorem idx_onto : ∀ q : Fin 64, ∃ t : Fin cfg0.N, win0_1.index t = ![q.val, 0, 0] :=
  (by decide +kernel : ∀ q : Fin 64, ∃ t : Fin grid0.N, win0_1.index t = ![q.val, 0, 0])

/-- Entry `(b, r, e)` of point `t`'s input block is entry `(64 t + b, r, e)` of the argument. -/
theorem in_block (c : Dev nD) (t : Fin cfg0.N) (b : Fin 64) (r : Fin 40) (e : Fin 64)
    (h : win0_1.index t (0 : Fin 3) * 64 + b.val < 4096) :
    iblk m c 0 t (ix3 b r e) = V m c main_arg0 (ix3 ⟨win0_1.index t (0 : Fin 3) * 64 + b.val, h⟩ r e) := by
  show V m c main_arg0 (((cfg0.win 0).blk t).view.emb (ix3 b r e)) = _
  refine congrArg (V m c main_arg0) (funext fun a => Fin.ext ?_)
  obtain ⟨e0, e1, e2, e3, e4, e5⟩ := idx_facts t
  match a with
  | ⟨0, _⟩ => show win0_0.index t (0 : Fin 3) * 64 + 1 * b.val = win0_1.index t (0 : Fin 3) * 64 + b.val; omega
  | ⟨1, _⟩ => show win0_0.index t (1 : Fin 3) * 40 + 1 * r.val = r.val; omega
  | ⟨2, _⟩ => show win0_0.index t (2 : Fin 3) * 64 + 1 * e.val = e.val; omega

/-- What point `t` writes back is block `t` of the pairwise products of the argument. -/
theorem flushed_eq (c : Dev nD) (t : Fin cfg0.N) :
    (dats m 0 c).flushed 1 t
      = ((cfg0.win 1).blk t).view.read (Elt Ideal) (Cert.Pairs.prod (B := 4096) (V m c main_arg0)) := by
  rw [Value.flushed1_A, Block.out_eq]
  funext y
  obtain ⟨b, p, e, rfl⟩ : ∃ (b : Fin 64) (p : Fin 780) (e : Fin 64), y = ix3 b p e := ⟨y 0, y 1, y 2, eq_ix3 y⟩
  obtain ⟨e0, e1, e2, e3, e4, e5⟩ := idx_facts t
  have hb : win0_1.index t (0 : Fin 3) * 64 + b.val < 4096 := by have := b.isLt; omega
  have hemb : ((cfg0.win 1).blk t).view.emb (ix3 b p e) = ix3 ⟨win0_1.index t (0 : Fin 3) * 64 + b.val, hb⟩ p e := by
    refine funext fun a => Fin.ext ?_
    match a with
    | ⟨0, _⟩ => show win0_1.index t (0 : Fin 3) * 64 + 1 * b.val = win0_1.index t (0 : Fin 3) * 64 + b.val; omega
    | ⟨1, _⟩ => show win0_1.index t (1 : Fin 3) * 780 + 1 * p.val = p.val; omega
    | ⟨2, _⟩ => show win0_1.index t (2 : Fin 3) * 64 + 1 * e.val = e.val; omega
  show Cert.Pairs.prod (B := 64) (iblk m c 0 t) (ix3 b p e)
    = Cert.Pairs.prod (B := 4096) (V m c main_arg0) (((cfg0.win 1).blk t).view.emb (ix3 b p e))
  rw [hemb, Cert.Pairs.prod_apply, Cert.Pairs.prod_apply, in_block m c t b _ e hb, in_block m c t b _ e hb]

/-- An index of the result array is in point `t`'s block iff each coordinate is in the block's range on its axis. -/
theorem mem_blk (t : Fin cfg0.N) (i : S4096x780x64.Idx) :
    i ∈ ((cfg0.win 1).blk t).view.set ↔ ∀ a : Fin 3, win0_1.index t a * S64x780x64.size a ≤ (i a).val
      ∧ (i a).val < win0_1.index t a * S64x780x64.size a + S64x780x64.size a := by
  show i ∈ ((View.whole main_v0).slice (win0_1.rect t)).set ↔ _
  rw [View.set_slice_whole, Rect.mem_set_unit]
  exact Iff.rfl

/-- Every index of the result array is in the block of the point that works on its batch entry. -/
theorem cover (i : S4096x780x64.Idx) :
    ∃ t : Fin cfg0.N, (cfg0.win 1).flush t = true ∧ i ∈ ((cfg0.win 1).blk t).view.set := by
  have hi0 : (i 0).val < 4096 := (i 0).isLt
  have hi1 : (i 1).val < 780 := (i 1).isLt
  have hi2 : (i 2).val < 64 := (i 2).isLt
  obtain ⟨t, ht⟩ := idx_onto ⟨(i 0).val / 64, by omega⟩
  have q0 : win0_1.index t (0 : Fin 3) = (i 0).val / 64 := congrFun ht 0
  have q1 : win0_1.index t (1 : Fin 3) = 0 := congrFun ht 1
  have q2 : win0_1.index t (2 : Fin 3) = 0 := congrFun ht 2
  refine ⟨t, flush0_1 t, ?_⟩
  rw [mem_blk]
  intro a
  match a with
  | ⟨0, _⟩ => show win0_1.index t (0 : Fin 3) * 64 ≤ (i 0).val ∧ (i 0).val < win0_1.index t (0 : Fin 3) * 64 + 64; omega
  | ⟨1, _⟩ => show win0_1.index t (1 : Fin 3) * 780 ≤ (i 1).val ∧ (i 1).val < win0_1.index t (1 : Fin 3) * 780 + 780; omega
  | ⟨2, _⟩ => show win0_1.index t (2 : Fin 3) * 64 ≤ (i 2).val ∧ (i 2).val < win0_1.index t (2 : Fin 3) * 64 + 64; omega

/-- After the run the result array holds the pairwise products of the argument. -/
theorem final (c : Dev nD) :
    (dats m 0 c).arrAt 1 cfg0.N = Cert.Pairs.prod (B := 4096) (m ((c : Thread nD τ).loc main_arg0)) :=
  (dats m 0 c).arrAt_eq_of_cover 1 (Cert.Pairs.prod (B := 4096) (V m c main_arg0)) (fun t _ => flushed_eq m c t) cover

/-- Every weakly fair execution of the kernel's program terminates with the result array at the pairwise products of
    the argument and the argument unchanged. -/
theorem run : θ_run defs (onTc (τ := τ) (main (F := Ideal))) ⟨m, fun _ => 0, ρ⟩ fun r => ∀ c : Dev nD,
      r.2.mem ((c : Thread nD τ).loc main_v0) = Cert.Pairs.prod (B := 4096) (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.Whole

end
-- ==== Proof.RefRun.lean ====
/-
  The reference program's run, read back.

  The reference is a straight line of seventeen host operations: two tables of 780 words each (the smaller and the
  larger member of every pair), each table passed through jnp's index normalisation (add 40 where the mask says the
  index is negative — the mask is constantly false, so the table passes unchanged), made a column, and used to gather
  rows of the argument; the two gathered arrays are multiplied entry by entry. Every weakly fair execution terminates
  with the result buffer at that composed term of the argument and the argument unchanged.
-/
import proofs.«158834_j17463337025632_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 17 operations, in order. -/
abbrev ops : List (HloOp τ sig (Elt F)) :=
  [ nullary main_c (fun i => lit0 (S780.rowMajor i)),
    nullary main_c_0 (constantI S780 1 0#1),
    nullary main_c_1 (fun i => lit1 (S780.rowMajor i)),
    nullary main_c_2 (constantI S780 1 0#1),
    nullary main_c_3 (constantI S_ 32 40#32),
    unary main_c_3 main_v0 (broadcastInDim S780 ![] bcast_S_S780 : (⟨S_, .i32⟩ : BufTy).Contents (Elt F) → (⟨S780, .i32⟩ : BufTy).Contents (Elt F)),
    binary main_c main_v0 main_v1 (addi : (⟨S780, .i32⟩ : BufTy).Contents (Elt F) → (⟨S780, .i32⟩ : BufTy).Contents (Elt F) → (⟨S780, .i32⟩ : BufTy).Contents (Elt F)),
    ternary main_c_0 main_v1 main_c main_v2 (select : (⟨S780, .i1⟩ : BufTy).Contents (Elt F) → (⟨S780, .i32⟩ : BufTy).Contents (Elt F) → (⟨S780, .i32⟩ : BufTy).Contents (Elt F) → (⟨S780, .i32⟩ : BufTy).Contents (Elt F)),
    unary main_v2 main_v3 (broadcastInDim S780x1 ![0] bcast_S780_S780x1_0 : (⟨S780, .i32⟩ : BufTy).Contents (Elt F) → (⟨S780x1, .i32⟩ : BufTy).Contents (Elt F)),
    binary main_arg0 main_v3 main_v4 ((fun x i => Host.gather gather_S4096x40x64_S780x1_S4096x780x64_02_1_n_n_1_1_4096164 x i) : (⟨S4096x40x64, .f32⟩ : BufTy).Contents (Elt F) → (⟨S780x1, .i32⟩ : BufTy).Contents (Elt F) → (⟨S4096x780x64, .f32⟩ : BufTy).Contents (Elt F)),
    nullary main_c_4 (constantI S_ 32 40#32),
    unary main_c_4 main_v5 (broadcastInDim S780 ![] bcast_S_S780 : (⟨S_, .i32⟩ : BufTy).Contents (Elt F) → (⟨S780, .i32⟩ : BufTy).Contents (Elt F)),
    binary main_c_1 main_v5 main_v6 (addi : (⟨S780, .i32⟩ : BufTy).Contents (Elt F) → (⟨S780, .i32⟩ : BufTy).Contents (Elt F) → (⟨S780, .i32⟩ : BufTy).Contents (Elt F)),
    ternary main_c_2 main_v6 main_c_1 main_v7 (select : (⟨S780, .i1⟩ : BufTy).Contents (Elt F) → (⟨S780, .i32⟩ : BufTy).Contents (Elt F) → (⟨S780, .i32⟩ : BufTy).Contents (Elt F) → (⟨S780, .i32⟩ : BufTy).Contents (Elt F)),
    unary main_v7 main_v8 (broadcastInDim S780x1 ![0] bcast_S780_S780x1_0 : (⟨S780, .i32⟩ : BufTy).Contents (Elt F) → (⟨S780x1, .i32⟩ : BufTy).Contents (Elt F)),
    binary main_arg0 main_v8 main_v9 ((fun x i => Host.gather gather_S4096x40x64_S780x1_S4096x780x64_02_1_n_n_1_1_4096164 x i) : (⟨S4096x40x64, .f32⟩ : BufTy).Contents (Elt F) → (⟨S780x1, .i32⟩ : BufTy).Contents (Elt F) → (⟨S4096x780x64, .f32⟩ : BufTy).Contents (Elt F)),
    binary main_v4 main_v9 main_v10 (mulf : (⟨S4096x780x64, .f32⟩ : BufTy).Contents (Elt F) → (⟨S4096x780x64, .f32⟩ : BufTy).Contents (Elt F) → (⟨S4096x780x64, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., nullary_bufs_sub .., nullary_bufs_sub .., nullary_bufs_sub ..,
    unary_bufs_sub .., binary_bufs_sub .., ternary_bufs_sub .., unary_bufs_sub .., binary_bufs_sub ..,
    nullary_bufs_sub .., unary_bufs_sub .., binary_bufs_sub .., ternary_bufs_sub .., unary_bufs_sub .., binary_bufs_sub ..,
    binary_bufs_sub ..⟩

/-- A table of pair members as the gather's column of start indices: the table, passed through the index
    normalisation under the constantly false mask, one word per row. -/
def column (lit : Fin 780 → BitVec 32) : (⟨S780x1, .i32⟩ : BufTy).Contents (Elt F) :=
  broadcastInDim S780x1 ![0] bcast_S780_S780x1_0
    (select (constantI S780 1 0#1 : (⟨S780, .i1⟩ : BufTy).Contents (Elt F))
      (addi (fun i => lit (S780.rowMajor i) : (⟨S780, .i32⟩ : BufTy).Contents (Elt F))
        (broadcastInDim S780 ![] bcast_S_S780 (constantI S_ 32 40#32 : (⟨S_, .i32⟩ : BufTy).Contents (Elt F))))
      (fun i => lit (S780.rowMajor i) : (⟨S780, .i32⟩ : BufTy).Contents (Elt F)))

/-- The reference's result as a function of its argument: the rows the first table names times the rows the
    second table names. -/
def result (x : (⟨S4096x40x64, .f32⟩ : BufTy).Contents (Elt F)) : (⟨S4096x780x64, .f32⟩ : BufTy).Contents (Elt F) :=
  mulf (Host.gather gather_S4096x40x64_S780x1_S4096x780x64_02_1_n_n_1_1_4096164 x (column (F := F) lit0))
    (Host.gather gather_S4096x40x64_S780x1_S4096x780x64_02_1_n_n_1_1_4096164 x (column (F := F) lit1))

/-- On every device, from any memory with zero counters: every weakly fair execution of @main terminates with the
    result buffer at `result` of the argument and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v10) = result (F := F) (m ((c.tc : Thread nD τ).loc main_arg0))
      ∧ r.2.mem ((c.tc : Thread nD τ).loc main_arg0) = m ((c.tc : Thread nD τ).loc main_arg0) :=
  (θ_run defs _ _).mono (fun _ h c => ⟨(h c main_v10).trans (by after_results; rfl),
      (h c main_arg0).trans (by after_results)⟩)
    (run_seq scopedRefs_eq scopedSems_eq defs main (fun _ => ops) main_eq (fun _ => ops_sub) m ρ)

end Cert.ReferenceIdeal.RefRun

end
-- ==== Proof.LibRowScatter.lean ====
/-
  Whole rows gathered and scattered along the node axis, read at an index.

  The operand is an array over (batch, node, feature) of extents `B, N, D`; the indices are a column of `M` words,
  each naming a node; the other array is over (batch, index, feature) of extents `B, M, D`.
  * An ACCUMULATING SCATTER adds update row `e` to operand row `idx[e]` (read signed; a row outside `[0, N)` is
    dropped). At the extended reals entry `(b, n, d)` of the result is the operand's entry plus the sum, over the
    rows `e` with `idx[e] = n`, of update entry `(b, e, d)` (`hostScatterAdd_rows_apply`), because an update entry
    `(b, e, d)` lands exactly at `(b, idx[e], d)` (`resultIdx?_rows`).
  * A GATHER reads operand row `idx[e]`, read signed and clamped into `[0, N − 1]`, into result row `e`
    (`gather_rows_apply`).
  * A sum over a range of doubled length splits into its two halves (`sum_two_halves`), which is how one scatter of
    two update lists laid end to end is compared with two scatters in a row.
-/
import Idealize.ShloMosaic.PureOps.Ideal
import Idealize.ShloMosaic.Lib.ValueIdx

noncomputable section
open scoped BigOperators
namespace Cert.LibRows

open Idealize.ShloMosaic Idealize.ShloMosaic.ValueIdx

/-- The dimension numbers of a scatter of whole rows: update axes 0 and 2 are window axes, operand axis 1 is the
    inserted one and the one the index names. -/
abbrev rowScatterDims (B N D M : Nat)
    (wf : ScatterDims.WF ⟨3, ![B, N, D]⟩ ⟨2, ![M, 1]⟩ ⟨3, ![B, M, D]⟩ [0, 2] [1] [1] 1) :
    ScatterDims ⟨3, ![B, N, D]⟩ ⟨2, ![M, 1]⟩ ⟨3, ![B, M, D]⟩ where
  updateWindowDims := [0, 2]
  insertedWindowDims := [1]
  scatterDimsToOperandDims := [1]
  indexVectorDim := 1
  wf := wf

variable {B N D M w : Nat} (wf : ScatterDims.WF ⟨3, ![B, N, D]⟩ ⟨2, ![M, 1]⟩ ⟨3, ![B, M, D]⟩ [0, 2] [1] [1] 1)

/-- On the node axis an update's start is its row's index word, read signed. -/
theorem start1 (j : (⟨3, ![B, M, D]⟩ : Shape).Idx) (idx : IVec ⟨2, ![M, 1]⟩ w) :
    (rowScatterDims B N D M wf).start j idx 1 = (idx (ix2 (j 1) (0 : Fin 1))).toInt := by
  unfold ScatterDims.start
  rw [dif_pos (show (1 : Fin 3) ∈ (rowScatterDims B N D M wf).scatterDimsToOperandDims from List.mem_singleton.mpr rfl)]
  congr 2
  funext b; refine Fin.ext ?_
  match b with
  | ⟨0, _⟩ => rfl
  | ⟨1, _⟩ => rfl

/-- Update entry `(b, e, d)` lands at `(b', n, d')` exactly when the batch and the feature agree and row `e`'s index
    word, read signed, is `n`. -/
theorem resultIdx?_rows (e : Fin M) (b : Fin B) (d : Fin D) (idx : IVec ⟨2, ![M, 1]⟩ w) (b' : Fin B) (n : Fin N) (d' : Fin D) :
    (rowScatterDims B N D M wf).resultIdx? (ix3 b e d) idx = some (ix3 b' n d') ↔
      b' = b ∧ d' = d ∧ (idx (ix2 e (0 : Fin 1))).toInt = (n.val : ℤ) := by
  have hs : (rowScatterDims B N D M wf).start (ix3 b e d) idx 1 = (idx (ix2 e (0 : Fin 1))).toInt := start1 wf _ idx
  unfold ScatterDims.resultIdx?
  split
  · next h =>
    rw [Option.some.injEq]
    constructor
    · intro hf
      have h0 := congrArg (fun f => (f 0).val) hf
      have h1 := congrArg (fun f => (f 1).val) hf
      have h2 := congrArg (fun f => (f 2).val) hf
      have g1 := (h 1).1
      simp only at h0 h1 h2
      refine ⟨Fin.ext ?_, Fin.ext ?_, ?_⟩
      · have : ((0 : ℤ) + ((b.val : ℕ) : ℤ)).toNat = b'.val := h0
        omega
      · have : ((0 : ℤ) + ((d.val : ℕ) : ℤ)).toNat = d'.val := h2
        omega
      · have e1 : ((rowScatterDims B N D M wf).start (ix3 b e d) idx 1 + ((0 : ℕ) : ℤ)).toNat = n.val := h1
        have e2 : 0 ≤ (rowScatterDims B N D M wf).start (ix3 b e d) idx 1 + ((0 : ℕ) : ℤ) := g1
        rw [hs] at e1 e2
        omega
    · rintro ⟨rfl, rfl, hx⟩
      funext a
      refine Fin.ext ?_
      match a with
      | ⟨0, _⟩ => show ((0 : ℤ) + ((b'.val : ℕ) : ℤ)).toNat = b'.val; omega
      | ⟨1, _⟩ =>
        show ((rowScatterDims B N D M wf).start (ix3 b' e d') idx 1 + ((0 : ℕ) : ℤ)).toNat = n.val
        rw [hs, hx]; omega
      | ⟨2, _⟩ => show ((0 : ℤ) + ((d'.val : ℕ) : ℤ)).toNat = d'.val; omega
  · next h =>
    constructor
    · intro hf; exact absurd hf (by simp)
    · rintro ⟨rfl, rfl, hx⟩
      exfalso; apply h
      intro a
      match a with
      | ⟨0, _⟩ =>
        show 0 ≤ (0 : ℤ) + ((b'.val : ℕ) : ℤ) ∧ (0 : ℤ) + ((b'.val : ℕ) : ℤ) < ((B : ℕ) : ℤ)
        have := b'.isLt; omega
      | ⟨1, _⟩ =>
        show 0 ≤ (rowScatterDims B N D M wf).start (ix3 b' e d') idx 1 + ((0 : ℕ) : ℤ)
          ∧ (rowScatterDims B N D M wf).start (ix3 b' e d') idx 1 + ((0 : ℕ) : ℤ) < ((N : ℕ) : ℤ)
        rw [hs, hx]; have := n.isLt; omega
      | ⟨2, _⟩ =>
        show 0 ≤ (0 : ℤ) + ((d'.val : ℕ) : ℤ) ∧ (0 : ℤ) + ((d'.val : ℕ) : ℤ) < ((D : ℕ) : ℤ)
        have := d'.isLt; omega

/-- The accumulating row scatter read at `(b, n, d)`. -/
theorem hostScatterAdd_rows_apply (x : (⟨3, ![B, N, D]⟩ : Shape).Idx → EReal) (idx : IVec ⟨2, ![M, 1]⟩ w)
    (upd : (⟨3, ![B, M, D]⟩ : Shape).Idx → EReal) (b : Fin B) (n : Fin N) (d : Fin D) :
    Ideal.hostScatterAdd (rowScatterDims B N D M wf) x idx upd (ix3 b n d)
      = x (ix3 b n d) + ∑ e : Fin M, if (idx (ix2 e (0 : Fin 1))).toInt = (n.val : ℤ) then upd (ix3 b e d) else 0 := by
  unfold Ideal.hostScatterAdd
  refine congrArg (x (ix3 b n d) + ·) ?_
  rw [← Finset.sum_filter]
  refine Finset.sum_nbij' (fun j => (j 1 : Fin M)) (fun e => ix3 b e d) ?_ ?_ ?_ ?_ ?_
  · intro j hj
    have hj' := (Finset.mem_filter.mp hj).2
    rw [eq_ix3 j] at hj'
    exact Finset.mem_filter.mpr ⟨Finset.mem_univ _, ((resultIdx?_rows wf _ _ _ idx b n d).mp hj').2.2⟩
  · intro e he
    have he' := (Finset.mem_filter.mp he).2
    exact Finset.mem_filter.mpr ⟨Finset.mem_univ _, (resultIdx?_rows wf e b d idx b n d).mpr ⟨rfl, rfl, he'⟩⟩
  · intro j hj
    have hj' := (Finset.mem_filter.mp hj).2
    rw [eq_ix3 j] at hj'
    obtain ⟨h0, h2, -⟩ := (resultIdx?_rows wf _ _ _ idx b n d).mp hj'
    have hjj : j = ix3 b (j 1) d := by rw [h0, h2]; exact eq_ix3 j
    exact hjj.symm
  · intro e _; rfl
  · intro j hj
    have hj' := (Finset.mem_filter.mp hj).2
    rw [eq_ix3 j] at hj'
    obtain ⟨h0, h2, -⟩ := (resultIdx?_rows wf _ _ _ idx b n d).mp hj'
    have hjj : j = ix3 b (j 1) d := by rw [h0, h2]; exact eq_ix3 j
    exact congrArg upd hjj

/-- A sum over a range of doubled length is the sum over its first half plus the sum over its second half. -/
theorem sum_two_halves {K K2 : Nat} (h : K2 = K + K) (f : Fin K2 → EReal) :
    ∑ e, f e = ∑ e : Fin K, f ⟨e.val, by omega⟩ + ∑ e : Fin K, f ⟨K + e.val, by omega⟩ := by
  subst h
  rw [Fin.sum_univ_add]
  rfl

/-- The dimension numbers of a gather of whole rows: the operand over (batch, node, feature), a column of `M` start
    indices naming nodes, the result over (batch, index, feature). -/
abbrev rowGatherDims (B N D M : Nat)
    (wf : GatherDims.WF ⟨3, ![B, N, D]⟩ ⟨2, ![M, 1]⟩ ⟨3, ![B, M, D]⟩ [0, 2] [1] [] [1] [] 1 ![B, 1, D]) :
    GatherDims ⟨3, ![B, N, D]⟩ ⟨2, ![M, 1]⟩ ⟨3, ![B, M, D]⟩ where
  offsetDims := [0, 2]
  collapsedSliceDims := [1]
  operandBatchingDims := []
  startIndicesBatchingDims := []
  startIndexMap := [1]
  indexVectorDim := 1
  sliceSizes := ![B, 1, D]
  wf := wf

/-- The row gather read at `(b, e, d)`: the operand at row `idx[e]`, read signed and clamped into `[0, N − 1]`. -/
theorem gather_rows_apply {α : Type} (hN : 0 < N)
    (wfg : GatherDims.WF ⟨3, ![B, N, D]⟩ ⟨2, ![M, 1]⟩ ⟨3, ![B, M, D]⟩ [0, 2] [1] [] [1] [] 1 ![B, 1, D])
    (x : (⟨3, ![B, N, D]⟩ : Shape).Idx → α) (idx : IVec ⟨2, ![M, 1]⟩ w) (b : Fin B) (e : Fin M) (d : Fin D) :
    Host.gather (rowGatherDims B N D M wfg) x idx (ix3 b e d)
      = x (ix3 b ⟨min (idx (ix2 e (0 : Fin 1))).toInt.toNat (N - 1), by omega⟩ d) := by
  unfold Host.gather
  refine congrArg x (funext fun a => Fin.ext ?_)
  have hst : (rowGatherDims B N D M wfg).start (ix3 b e d) idx 1 = min (idx (ix2 e (0 : Fin 1))).toInt.toNat (N - 1) := by
    unfold GatherDims.start
    rw [dif_pos (show (1 : Fin 3) ∈ (rowGatherDims B N D M wfg).startIndexMap from List.mem_singleton.mpr rfl)]
    have hsi : (rowGatherDims B N D M wfg).siIdx (ix3 b e d) ⟨List.idxOf (1 : Fin 3) (rowGatherDims B N D M wfg).startIndexMap,
        List.idxOf_lt_length_iff.2 (List.mem_singleton.mpr rfl)⟩ = ix2 e (0 : Fin 1) := by
      funext c; refine Fin.ext ?_
      match c with
      | ⟨0, _⟩ => rfl
      | ⟨1, _⟩ => rfl
    rw [hsi]
    rfl
  match a with
  | ⟨0, _⟩ =>
    show (rowGatherDims B N D M wfg).start (ix3 b e d) idx 0 + (rowGatherDims B N D M wfg).batchCoord (ix3 b e d) 0
      + (rowGatherDims B N D M wfg).offCoord (ix3 b e d) 0 = b.val
    have h1 : (rowGatherDims B N D M wfg).start (ix3 b e d) idx 0 = 0 := rfl
    have h2 : (rowGatherDims B N D M wfg).batchCoord (ix3 b e d) 0 = 0 := rfl
    have h3 : (rowGatherDims B N D M wfg).offCoord (ix3 b e d) 0 = b.val := rfl
    rw [h1, h2, h3]; omega
  | ⟨1, _⟩ =>
    show (rowGatherDims B N D M wfg).start (ix3 b e d) idx 1 + (rowGatherDims B N D M wfg).batchCoord (ix3 b e d) 1
      + (rowGatherDims B N D M wfg).offCoord (ix3 b e d) 1 = min (idx (ix2 e (0 : Fin 1))).toInt.toNat (N - 1)
    have h2 : (rowGatherDims B N D M wfg).batchCoord (ix3 b e d) 1 = 0 := rfl
    have h3 : (rowGatherDims B N D M wfg).offCoord (ix3 b e d) 1 = 0 := rfl
    rw [hst, h2, h3]; rfl
  | ⟨2, _⟩ =>
    show (rowGatherDims B N D M wfg).start (ix3 b e d) idx 2 + (rowGatherDims B N D M wfg).batchCoord (ix3 b e d) 2
      + (rowGatherDims B N D M wfg).offCoord (ix3 b e d) 2 = d.val
    have h1 : (rowGatherDims B N D M wfg).start (ix3 b e d) idx 2 = 0 := rfl
    have h2 : (rowGatherDims B N D M wfg).batchCoord (ix3 b e d) 2 = 0 := rfl
    have h3 : (rowGatherDims B N D M wfg).offCoord (ix3 b e d) 2 = d.val := rfl
    rw [h1, h2, h3]; omega

end Cert.LibRows
end
-- ==== Proof.RefValue.lean ====
/-
  The reference computes the array of pairwise products.

  Its two tables hold, position by position, the smaller and the larger member of the pairs in the row-by-row order
  (`table_lo`, `table_hi`: all 780 positions compared). Each table reaches the gather unchanged as a column of start
  indices (`column_apply`), the gather reads the row the word names — signed, clamped into the 40 rows —, and the
  product of the two gathered arrays at `(b, p, e)` is `x (b, lo p, e) * x (b, hi p, e)`.
-/
import proofs.«158834_j17463337025632_1_alg».proof.Proof.RefRun
import proofs.«158834_j17463337025632_1_alg».proof.Proof.Pairs
import proofs.«158834_j17463337025632_1_alg».proof.Proof.LibRowScatter
import Idealize.ShloMosaic.Lib.ValueIdx
import Idealize.ShloMosaic.Lib.ValueLayout
import Idealize.ShloMosaic.Lib.Pipeline.Value

noncomputable section

namespace Cert.ReferenceIdeal.RefValue

open Cert.ReferenceIdeal Cert.ReferenceIdeal.Gen Idealize.ShloMosaic Idealize.ShloMosaic.ValueIdx

/-- The first table holds the smaller member of each pair. -/
theorem table_lo : ∀ p : Fin 780, min (lit0 p).toInt.toNat (40 - 1) = (Cert.Pairs.lo p).val := by decide +kernel

/-- The second table holds the larger member of each pair. -/
theorem table_hi : ∀ p : Fin 780, min (lit1 p).toInt.toNat (40 - 1) = (Cert.Pairs.hi p).val := by decide +kernel

/-- The column of start indices made from a table holds the table's word for row `p`: the mask of the index
    normalisation is constantly false, so the table passes through unchanged. -/
theorem column_apply (lit : Fin 780 → BitVec 32) (p : Fin 780) :
    RefRun.column (F := Ideal) lit (ix2 p (0 : Fin 1)) = lit p := by
  unfold RefRun.column
  rw [broadcastInDim_apply ![0] bcast_S780_S780x1_0 _ (ix2 p (0 : Fin 1)) (ix1 p)
    (fun a => by match a with | ⟨0, _⟩ => rfl)]
  rw [select_apply]
  show Scalar.select (0#1) _ _ = _
  rw [select_zero]
  exact congrArg lit (Fin.ext (Shape.rowMajor_val_one _))

/-- The reference's result is the array of pairwise products of its argument. -/
theorem result_eq (x : (⟨3, ![4096, 40, 64]⟩ : Shape).Idx → EReal) :
    RefRun.result (F := Ideal) x = Cert.Pairs.prod (B := 4096) x := by
  funext y
  obtain ⟨b, p, e, rfl⟩ : ∃ (b : Fin 4096) (p : Fin 780) (e : Fin 64), y = ix3 b p e := ⟨y 0, y 1, y 2, eq_ix3 y⟩
  rw [Cert.Pairs.prod_apply]
  show Host.gather (Cert.LibRows.rowGatherDims 4096 40 64 780 gather_S4096x40x64_S780x1_S4096x780x64_02_1_n_n_1_1_4096164_wf) x
        (RefRun.column (F := Ideal) lit0) (ix3 b p e)
      * Host.gather (Cert.LibRows.rowGatherDims 4096 40 64 780 gather_S4096x40x64_S780x1_S4096x780x64_02_1_n_n_1_1_4096164_wf) x
        (RefRun.column (F := Ideal) lit1) (ix3 b p e) = _
  rw [Cert.LibRows.gather_rows_apply (by decide) _ x _ b p e, Cert.LibRows.gather_rows_apply (by decide) _ x _ b p e]
  simp only [column_apply]
  have h0 : (⟨min (lit0 p).toInt.toNat (40 - 1), by omega⟩ : Fin 40) = Cert.Pairs.lo p := Fin.ext (table_lo p)
  have h1 : (⟨min (lit1 p).toInt.toNat (40 - 1), by omega⟩ : Fin 40) = Cert.Pairs.hi p := Fin.ext (table_hi p)
  rw [h0, h1]

end Cert.ReferenceIdeal.RefValue

end
-- ==== Proof.lean ====
/-
  Pairwise products of feature rows: the kernel against its reference.

  Both programs take an array `x` over (batch, row, feature) of extents 4096 × 40 × 64 and return, over
  (batch, pair, feature) of extents 4096 × 780 × 64, the products `x (b, i, e) * x (b, j, e)` for the 780 pairs
  `i < j` listed row by row (Proof/Pairs.lean: `lo`, `hi`, `prod`).
  * The kernel works on 64 batch entries per grid point and fills its output block with 39 stores, one per row of the
    list of pairs: feature row `i` repeated and multiplied with the rows after it (Proof/KernelPiece.lean, one such
    store is a block of `prod`; Proof/KernelBlock.lean, the 39 stores leave `prod` of the input block;
    Proof/KernelValue.lean, the 64 blocks make up `prod` of the whole argument).
  * The reference gathers the rows named by two tables of 780 words and multiplies the two gathered arrays
    (Proof/RefRun.lean, its run; Proof/RefValue.lean, the tables are `lo` and `hi`, so its result is `prod` of the argument).
  The two sides form the same product of the same two entries, in the same order, so they agree at every extended
  real and the precondition is never used. The idealization rewrote nothing, so `preserves` asks nothing; the two
  kernel programs' frames are the generated ones and the reference's frame is its run with the result dropped.
-/
import proofs.«158834_j17463337025632_1_alg».proof.Defs
import proofs.«158834_j17463337025632_1_alg».proof.Proof.Gen.Kernel
import proofs.«158834_j17463337025632_1_alg».proof.Proof.Gen.Kernel.Skeleton
import proofs.«158834_j17463337025632_1_alg».proof.Proof.Gen.Kernel.Launch
import proofs.«158834_j17463337025632_1_alg».proof.Proof.Gen.Kernel.Points
import proofs.«158834_j17463337025632_1_alg».proof.Proof.Gen.Kernel.Frame
import proofs.«158834_j17463337025632_1_alg».proof.Proof.Gen.KernelIdeal
import proofs.«158834_j17463337025632_1_alg».proof.Proof.Gen.KernelIdeal.Skeleton
import proofs.«158834_j17463337025632_1_alg».proof.Proof.Gen.KernelIdeal.Launch
import proofs.«158834_j17463337025632_1_alg».proof.Proof.Gen.KernelIdeal.Points
import proofs.«158834_j17463337025632_1_alg».proof.Proof.Gen.KernelIdeal.Frame
import proofs.«158834_j17463337025632_1_alg».proof.Proof.Gen.KernelIdeal.Value
import proofs.«158834_j17463337025632_1_alg».proof.Proof.Gen.ReferenceIdeal
import proofs.«158834_j17463337025632_1_alg».proof.Proof.Gen.Pre_finite_inputs
import proofs.«158834_j17463337025632_1_alg».proof.Proof.KernelValue
import proofs.«158834_j17463337025632_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- Both programs end with the result array at the pairwise products of the argument. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.RefRun.run (F := Ideal) m' ρ')
  rw [hagree c]
  exact Cert.ReferenceIdeal.RefValue.result_eq _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
